-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : FVec F S128x64 .f32) (main_arg2 : FVec F S64 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x128 : Shape := ⟨2, ![10000, 128]⟩
abbrev S10000x1 : Shape := ⟨2, ![10000, 1]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 35
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S100000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S1x64, .f32⟩
  | .hbm, ⟨34, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x64, .f32⟩
  | .hbm, ⟨19, _⟩ => ⟨S100000x1, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel program's run, with its result array named.

  The program is six segments in order: three stretches of host operations (the out-degree histogram, its clamp from
  below at one, the power −1/2 and the re-laying of that vector as a column), the first tiled region (features times
  weights, each row scaled by its node's entry of the column), a stretch that gathers the rows named by the edges'
  sources and adds them into the rows named by the edges' destinations, and the second tiled region (rows scaled
  again, the bias row added). Every weakly fair execution runs these segments one after the other; what each
  unscoped buffer holds at each boundary is a fold of the segments over the launch memory, and at the end every
  unscoped buffer — the result array among them — holds the last boundary's contents. The argument arrays are written
  by no segment, so at the last boundary they still hold what they were launched with.
-/
import proofs.«135910_j9706626090092_2_alg».proof.Proof.Gen.KernelIdeal.Frame

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of its buffer, and the five argument arrays end as launched. -/
theorem run_result : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Gcn

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.Payload.lean ====
/-
  What each of the two kernel bodies stores, read at a row `p` and a column `q` of its 10000 × 64 block.

  * The first body multiplies a 10000 × 128 block of the features by the whole 128 × 64 weight matrix (both first
    changed to a narrower float format, which over the extended reals changes nothing) into a zero accumulator, and
    scales row `p` of the product by entry `p` of a 10000 × 1 column: at `(p, q)` it stores
    `(∑ k, x (p, k) · w (k, q)) · n (p, 0)`.
  * The second body scales row `p` of a 10000 × 64 block by the same kind of column and adds a 1 × 64 row: at
    `(p, q)` it stores `a (p, q) · n (p, 0) + b (0, q)`.
-/
import proofs.«135910_j9706626090092_2_alg».proof.Proof.Gen.KernelIdeal.Skeleton
import proofs.«135910_j9706626090092_2_alg».proof.Proof.LibPlainMatmul
import proofs.«135910_j9706626090092_2_alg».proof.Proof.LibKeepdims

noncomputable section

namespace Cert.KernelIdeal.Gcn

open Idealize.ShloMosaic Idealize.ShloMosaic.ValueIdx Cert.KernelIdeal Cert.KernelIdeal.Gen
open scoped BigOperators

/-- The first body's stored value at `(p, q)`: row `p` of the feature block against column `q` of the weights,
    summed over the 128 shared entries, times entry `p` of the scaling column. -/
theorem linear_payload (x0 : Vec Ideal S10000x128 .f32) (x1 : Vec Ideal S128x64 .f32) (x2 : Vec Ideal S10000x1 .f32)
    (p : Fin 10000) (q : Fin 64) :
    k0_pay1 (F := Ideal) x0 x1 x2 (ix2 p q)
      = (∑ k : Fin 128, x0 (ix2 p k) * x1 (ix2 k q)) * x2 (ix2 p (0 : Fin 1)) := by
  unfold k0_pay1
  refine (mulf_apply _ _ _).trans ?_
  refine congrArg₂ (· * ·) ?_ ?_
  · exact Cert.LibPlainMatmul.matmul_zero_plain _ (truncf .bf16 x0 bitsLt_bf16_f32) (truncf .bf16 x1 bitsLt_bf16_f32) p q
  · refine (Cert.LibKeepdims.broadcastTo_a1_ab_apply _ _ p q).trans ?_
    exact congrFun (shapeCast_self x2 _) _

/-- The second body's stored value at `(p, q)`: the block's entry scaled by entry `p` of the column, plus entry
    `q` of the row. -/
theorem scale_payload (x0 : Vec Ideal S10000x64 .f32) (x1 : Vec Ideal S10000x1 .f32) (x2 : Vec Ideal S1x64 .f32)
    (p : Fin 10000) (q : Fin 64) :
    k1_pay1 (F := Ideal) x0 x1 x2 (ix2 p q)
      = x0 (ix2 p q) * x1 (ix2 p (0 : Fin 1)) + x2 (ix2 (0 : Fin 1) q) := by
  unfold k1_pay1
  refine (addf_apply _ _ _).trans ?_
  refine congrArg₂ (· + ·) ?_ ?_
  · refine (mulf_apply _ _ _).trans ?_
    refine congrArg₂ (· * ·) ?_ ?_
    · exact congrFun (shapeCast_self x0 _) _
    · refine (Cert.LibKeepdims.broadcastTo_a1_ab_apply _ _ p q).trans ?_
      exact congrFun (shapeCast_self x1 _) _
  · refine (broadcastTo_1b_ab_apply _ _ p q).trans ?_
    exact congrFun (shapeCast_self x2 _) _

end Cert.KernelIdeal.Gcn

end
-- ==== Proof.Spec.lean ====
/-
  The two whole-array functions that the tiled regions compute, stated over literal shapes with no program in sight.

  For 100000 nodes with 128 input and 64 output features:
  * `projected x w n` is the dense projection with each node's row scaled by that node's entry of a column `n`:
    at node `p` and output feature `q` it is `(∑ k, x (p, k) · w (k, q)) · n (p, 0)`;
  * `rescaled a n b` scales row `p` of an aggregated array `a` by the same column and adds a bias row `b`:
    at `(p, q)` it is `a (p, q) · n (p, 0) + b (0, q)`.
  A vector of 100000 node values enters both as a 100000 × 1 column (`column`), the 64 bias values as a 1 × 64 row
  (`biasRow`): the same numbers under one more, unit, coordinate.
  All are plain functions of their arguments over the extended reals; no finiteness is asked of anything.
-/
import Idealize.ShloMosaic.Lib.ValueIdx
import Idealize.ShloMosaic.PureOps.Ideal

noncomputable section

namespace Cert.Gcn

open Idealize.ShloMosaic Idealize.ShloMosaic.ValueIdx
open scoped BigOperators

/-- The offsets `[0, 0]` of a rectangle that starts at a rank-2 buffer's origin are zero on both axes. -/
theorem zero_offsets : (![0, 0] : Fin 2 → Nat) = fun _ => 0 := funext fun a => by fin_cases a <;> rfl

/-- The projection of node `p` onto output feature `q`, scaled by node `p`'s entry of the column. -/
def projectedAt (x : FVec Ideal ⟨2, ![100000, 128]⟩ .f32) (w : FVec Ideal ⟨2, ![128, 64]⟩ .f32)
    (n : FVec Ideal ⟨2, ![100000, 1]⟩ .f32) (p : Fin 100000) (q : Fin 64) : Ideal .f32 :=
  (∑ k : Fin 128, x (ix2 p k) * w (ix2 k q)) * n (ix2 p (0 : Fin 1))

/-- The scaled projection as one array. -/
def projected (x : FVec Ideal ⟨2, ![100000, 128]⟩ .f32) (w : FVec Ideal ⟨2, ![128, 64]⟩ .f32)
    (n : FVec Ideal ⟨2, ![100000, 1]⟩ .f32) : FVec Ideal ⟨2, ![100000, 64]⟩ .f32 :=
  fun i => projectedAt x w n (i 0) (i 1)

/-- An aggregated array with each row scaled by its node's entry of the column, plus the bias row. -/
def rescaled (a : FVec Ideal ⟨2, ![100000, 64]⟩ .f32) (n : FVec Ideal ⟨2, ![100000, 1]⟩ .f32)
    (b : FVec Ideal ⟨2, ![1, 64]⟩ .f32) : FVec Ideal ⟨2, ![100000, 64]⟩ .f32 :=
  fun i => a i * n (ix2 (i 0) (0 : Fin 1)) + b (ix2 (0 : Fin 1) (i 1))

/-- A vector of node values as a 100000 × 1 column: entry `(p, 0)` is the vector's entry `p`. -/
def column (n : FVec Ideal ⟨1, ![100000]⟩ .f32) : FVec Ideal ⟨2, ![100000, 1]⟩ .f32 := fun i => n (ix1 (i 0))

/-- The 64 bias values as a 1 × 64 row: entry `(0, q)` is the vector's entry `q`. -/
def biasRow (b : FVec Ideal ⟨1, ![64]⟩ .f32) : FVec Ideal ⟨2, ![1, 64]⟩ .f32 := fun i => b (ix1 (i 1))

end Cert.Gcn

end
-- ==== Proof.Blocks1.lean ====
/-
  The second tiled region's output array as one function of the arrays it finds on entry.

  The region walks ten grid points. At point `t` it reads rows `10000 t … 10000 t + 9999` of the aggregated array
  and of the scaling column, the one-row bias array whole, and writes back the same rows of its output: entry
  `(p, q)` of the block is the aggregated entry times the column's entry `p` plus the bias row's entry `q`. Row `p`
  of a block is row `10000 t + p` of the array, so the block written back is block `t` of `Cert.Gcn.rescaled` of the
  entry contents; the ten blocks tile the 100000 rows, so after the region the whole output array is `rescaled` of
  the entry contents.
-/
import proofs.«135910_j9706626090092_2_alg».proof.Proof.Gen.KernelIdeal.Frame
import proofs.«135910_j9706626090092_2_alg».proof.Proof.Payload
import proofs.«135910_j9706626090092_2_alg».proof.Proof.Spec

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

/-- The printed index maps over the ten points: the aggregated, column and output windows sit on block row `t` and
    block column 0, the bias window on block (0, 0). -/
theorem index_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One stored entry against the array function: if the aggregated block's entry `(p, q)` is entry `i` of an
    array `A0`, entry `p` of the column block is entry `i 0` of `A1`, and entry `q` of the bias block is entry `i 1`
    of `A2`, then the body's value at `(p, q)` is `rescaled A0 A1 A2` at `i`. -/
theorem scale_block (x0 : Vec Ideal S10000x64 .f32) (x1 : Vec Ideal S10000x1 .f32) (x2 : Vec Ideal S1x64 .f32)
    (A0 : FVec Ideal ⟨2, ![100000, 64]⟩ .f32) (A1 : FVec Ideal ⟨2, ![100000, 1]⟩ .f32) (A2 : FVec Ideal ⟨2, ![1, 64]⟩ .f32)
    (p : Fin 10000) (q : Fin 64) (i : (⟨2, ![100000, 64]⟩ : Shape).Idx)
    (h0 : x0 (ix2 p q) = A0 i)
    (h1 : x1 (ix2 p (0 : Fin 1)) = A1 (ix2 (i 0) (0 : Fin 1)))
    (h2 : x2 (ix2 (0 : Fin 1) q) = A2 (ix2 (0 : Fin 1) (i 1))) :
    k1_pay1 (F := Ideal) x0 x1 x2 (ix2 p q) = rescaled A0 A1 A2 i := by
  rw [scale_payload, h0, h1, h2]
  rfl

/-- What point `t` writes back is block `t` of `rescaled` of the arrays as the region finds them. -/
theorem region1_flushed (c : Dev nD) (t : Fin cfg1.N) :
    (dat1 V c).flushed 3 t
      = ((cfg1.win 3).blk t).view.read (Elt Ideal) (rescaled (V c main_v18) (V c main_v7) (V c main_v19)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S10000x1) zero_offsets,
    View.ld_unit_zero (S := S1x64) zero_offsets]
  obtain ⟨e0, e1, e2, e3, e4, e5, e6, e7⟩ := index_facts1 t
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
    = rescaled (V c main_v18) (V c main_v7) (V c main_v19) (((cfg1.win 3).blk t).view.emb (ix2 p q))
  refine scale_block (iblk1 V c 0 t) (iblk1 V c 1 t) (iblk1 V c 2 t) (V c main_v18) (V c main_v7) (V c main_v19) p q
    (((cfg1.win 3).blk t).view.emb (ix2 p q)) ?_ ?_ ?_
  · show V c main_v18 (((cfg1.win 0).blk t).view.emb (ix2 p q)) = V c main_v18 _
    refine congrArg (V c main_v18) (funext fun a => Fin.ext ?_)
    match a with
    | ⟨0, _⟩ =>
      show win1_0.index t (0 : Fin 2) * 10000 + 1 * p.val = win1_3.index t (0 : Fin 2) * 10000 + 1 * p.val
      omega
    | ⟨1, _⟩ =>
      show win1_0.index t (1 : Fin 2) * 64 + 1 * q.val = win1_3.index t (1 : Fin 2) * 64 + 1 * q.val
      omega
  · show V c main_v7 (((cfg1.win 1).blk t).view.emb (ix2 p (0 : Fin 1))) = V c main_v7 _
    refine congrArg (V c main_v7) (funext fun a => Fin.ext ?_)
    match a with
    | ⟨0, _⟩ =>
      show win1_1.index t (0 : Fin 2) * 10000 + 1 * p.val = win1_3.index t (0 : Fin 2) * 10000 + 1 * p.val
      omega
    | ⟨1, _⟩ =>
      show win1_1.index t (1 : Fin 2) * 1 + 1 * 0 = 0
      omega
  · show V c main_v19 (((cfg1.win 2).blk t).view.emb (ix2 (0 : Fin 1) q)) = V c main_v19 _
    refine congrArg (V c main_v19) (funext fun a => Fin.ext ?_)
    match a with
    | ⟨0, _⟩ =>
      show win1_2.index t (0 : Fin 2) * 1 + 1 * 0 = 0
      omega
    | ⟨1, _⟩ =>
      show win1_2.index t (1 : Fin 2) * 64 + 1 * q.val = win1_3.index t (1 : Fin 2) * 64 + 1 * q.val
      omega

/-- An index of the output array is in point `t`'s block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v20).slice (win1_3.rect t)).set ↔ _
  rw [View.set_slice_whole, Rect.mem_set_unit]
  exact Iff.rfl

/-- Every index of the output array is in the block of the point that holds its row: row `r` is in block
    `r / 10000`. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have ht : (i 0).val / 10000 < cfg1.N := by show (i 0).val / 10000 < grid1.N; rw [hN]; omega
  obtain ⟨-, -, -, -, -, -, e6, e7⟩ := index_facts1 ⟨(i 0).val / 10000, ht⟩
  have e6' : win1_3.index ⟨(i 0).val / 10000, ht⟩ (0 : Fin 2) = (i 0).val / 10000 := e6
  refine ⟨⟨(i 0).val / 10000, ht⟩, flush1_3 _, ?_⟩
  rw [mem_block1]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e6']; omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    rw [e7]; omega

/-- After the region its output array is `rescaled` of the aggregated array, the scaling column and the bias row as
    the region found them. -/
theorem region1_final (c : Dev nD) :
    (dat1 V c).arrAt 3 cfg1.N = rescaled (V c main_v18) (V c main_v7) (V c main_v19) :=
  (dat1 V c).arrAt_eq_of_cover 3 _ (fun t _ => region1_flushed V c t) cover1

end Cert.KernelIdeal.Gcn

end
-- ==== Proof.HostOps.lean ====
/-
  The kernel program's host operations, gathered into two functions, and the two re-layings read as the
  specification's column and row.

  * `invSqrtDeg src`: ones added at the edges' sources into a zero vector give every node's out-degree; clamped below
    at one and raised to the power −1/2 it is the scaling vector both regions use.
  * `aggregate H src dst`: the rows of `H` named by the sources (a negative index wrapped once by the number of
    nodes), added into the rows of a zero array named by the destinations. It is only ever carried, never opened.
  * A vector of 100000 values re-laid as a 100000 × 1 array is `column` of it, and the 64 bias values re-laid as a
    1 × 64 array are `biasRow` of them: row-major position `p · 1 + 0 = p`, and `0 · 64 + q = q`.
-/
import proofs.«135910_j9706626090092_2_alg».proof.Proof.Gen.KernelIdeal
import proofs.«135910_j9706626090092_2_alg».proof.Proof.Spec
import proofs.«135910_j9706626090092_2_alg».proof.Proof.LibKeepdims
import Idealize.ShloMosaic.PureOps.Ideal
import Idealize.ShloMosaic.Lib.ValueLayout

set_option maxRecDepth 16384

noncomputable section

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Gen Cert.Gcn

/-- The out-degree of every node (ones added at the edges' sources into zeros), clamped below at one, to the power
    −1/2: the host operations before the first region, as one function of the source indices. -/
def invSqrtDeg (src : IVec S1600000 32) : FVec Ideal S100000 .f32 :=
  Host.powf (F := Ideal)
    (maximumf (F := Ideal) (broadcastInDim S100000 ![] bcast_S_S100000 (id (constant (F := Ideal) S_ .f32 0x3F800000#32)))
      (Host.scatterAdd (F := Ideal) (φ := .f32) scatter_S100000_S1600000x1_S1600000_n_0_0_1
        (broadcastInDim S100000 ![] bcast_S_S100000 (constant (F := Ideal) S_ .f32 0x00000000#32))
        (broadcastInDim S1600000x1 ![0] bcast_S1600000_S1600000x1_0 src)
        (broadcastInDim S1600000 ![] bcast_S_S1600000 (constant (F := Ideal) S_ .f32 0x3F800000#32))))
    (broadcastInDim S100000 ![] bcast_S_S100000 (constant (F := Ideal) S_ .f32 0xBF000000#32))

/-- The rows of `H` named by the edges' sources (a negative index wrapped once by the number of nodes), added into
    the rows of a zero array named by the edges' destinations: the host operations between the two regions, as one
    function of the array and the two index vectors. -/
def aggregate (H : FVec Ideal S100000x64 .f32) (src dst : IVec S1600000 32) : FVec Ideal S100000x64 .f32 :=
  Host.scatterAdd (F := Ideal) (φ := .f32) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

theorem column_eq (n : FVec Ideal ⟨1, ![100000]⟩ .f32) (h : (⟨1, ![100000]⟩ : Shape).ShapeCasts ⟨2, ![100000, 1]⟩) :
    shapeCast ⟨2, ![100000, 1]⟩ n h = column n := by
  funext i
  obtain ⟨p, u, rfl⟩ : ∃ (p : Fin 100000) (u : Fin 1), i = ix2 p u := ⟨i 0, i 1, eq_ix2 i⟩
  exact Cert.LibKeepdims.shapeCast_a_a1_apply n h p u

theorem biasRow_eq (b : FVec Ideal ⟨1, ![64]⟩ .f32) (h : (⟨1, ![64]⟩ : Shape).ShapeCasts ⟨2, ![1, 64]⟩) :
    shapeCast ⟨2, ![1, 64]⟩ b h = biasRow b := by
  funext i
  obtain ⟨u, q, rfl⟩ : ∃ (u : Fin 1) (q : Fin 64), i = ix2 u q := ⟨i 0, i 1, eq_ix2 i⟩
  exact shapeCast_a_1a_apply b h u q

end Cert.KernelIdeal.Gcn

end
-- ==== Proof.Entry0.lean ====
/-
  What the first tiled region finds on entry.

  Three stretches of host operations run before it. None of them writes an argument array, so the feature array,
  the weight matrix, the bias vector and the two index vectors still hold their launch contents. The buffer the
  region reads its scaling column from is built one stretch at a time: the first stretch adds ones at the edges'
  sources into a zero vector (the out-degrees) and writes the literal one; the second clamps the degrees below at
  that one (read from any contents, then instantiated); the third raises the clamped degrees to the power −1/2 and re-lays the vector as a column. Together that
  is `invSqrtDeg` of the launch's source indices, re-laid as a column.
-/
import proofs.«135910_j9706626090092_2_alg».proof.Proof.Gen.KernelIdeal.Frame
import proofs.«135910_j9706626090092_2_alg».proof.Proof.HostOps

set_option maxRecDepth 16384

noncomputable section

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Gen Cert.Gcn

set_option Elab.async false

variable (m : (ℓ : Loc nD τ sig) → Buf (Elt Ideal) ℓ) (ρ : Dev nD → PrngReg)

/-! ## The argument arrays are as launched -/

theorem entry0_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results <;> rfl
theorem entry0_arg1 (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  dsimp only [hostOps0_2, hostOps0_1, hostOps0]
  after_results <;> rfl
theorem entry0_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  dsimp only [hostOps0_2, hostOps0_1, hostOps0]
  after_results <;> rfl
theorem entry0_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results <;> rfl
theorem entry0_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results <;> rfl

/-! ## The scaling column, one stretch at a time -/

/-- After the first stretch: the out-degrees, ones added at the sources into zeros. -/
theorem degree_value (c : Dev nD) :
    W1 m ρ c (Proc.devRef .tc main_v3)
      = Host.scatterAdd (F := Ideal) (φ := .f32) scatter_S100000_S1600000x1_S1600000_n_0_0_1
          (broadcastInDim S100000 ![] bcast_S_S100000 (constant (F := Ideal) S_ .f32 0x00000000#32))
          (broadcastInDim S1600000x1 ![0] bcast_S1600000_S1600000x1_0 (m ((c : Thread nD τ).loc main_arg3)))
          (broadcastInDim S1600000 ![] bcast_S_S1600000 (constant (F := Ideal) S_ .f32 0x3F800000#32)) := by
  show StableHlo.after hostOps0 (W0 m ρ c) (Proc.devRef .tc main_v3) = _
  dsimp only [hostOps0]
  after_results <;> rfl

/-- After the first stretch: the literal one the clamp compares against. -/
theorem one_value (c : Dev nD) :
    W1 m ρ c (Proc.devRef .tc main_cst_1) = constant (F := Ideal) S_ .f32 0x3F800000#32 := by
  show StableHlo.after hostOps0 (W0 m ρ c) (Proc.devRef .tc main_cst_1) = _
  dsimp only [hostOps0]
  after_results <;> rfl

/-- The second stretch, from any contents `V`: it writes the larger of the literal one (spread over the nodes) and the
    degree vector as it finds them. It holds of every `V`; the run's contents after the first stretch are one instance. -/
theorem clamp_step (V : Valuation τ sig (Elt Ideal)) :
    StableHlo.after hostOps0_1 V (Proc.devRef .tc main_v4)
      = maximumf (F := Ideal) (φ := .f32)
          (broadcastInDim S100000 ![] bcast_S_S100000 (id (V (Proc.devRef .tc main_cst_1) : FVec Ideal S_ .f32)))
          (V (Proc.devRef .tc main_v3)) := by
  dsimp only [hostOps0_1]
  after_results <;> rfl

/-- After the third stretch: the clamped degrees to the power −1/2, re-laid as a column. -/
theorem column_step (c : Dev nD) :
    V3 m ρ c main_v7
      = shapeCast S100000x1
          (Host.powf (F := Ideal) (W2 m ρ c (Proc.devRef .tc main_v4))
            (broadcastInDim S100000 ![] bcast_S_S100000 (constant (F := Ideal) S_ .f32 0xBF000000#32)))
          shapeCasts_S100000_S100000x1 := by
  show StableHlo.after hostOps0_2 (W2 m ρ c) (Proc.devRef .tc main_v7) = _
  dsimp only [hostOps0_2]
  after_results <;> rfl

/-- The scaling column the first region enters with: `invSqrtDeg` of the launch's source indices, re-laid as a
    column. -/
theorem entry0_column (c : Dev nD) :
    V3 m ρ c main_v7 = shapeCast S100000x1 (invSqrtDeg (m ((c : Thread nD τ).loc main_arg3))) shapeCasts_S100000_S100000x1 := by
  rw [column_step, show W2 m ρ c (Proc.devRef .tc main_v4) = _ from clamp_step (W1 m ρ c), one_value, degree_value]
  unfold invSqrtDeg
  rfl

end Cert.KernelIdeal.Gcn

end
-- ==== Proof.Blocks0.lean ====
/-
  The first tiled region's output array as one function of the arrays it finds on entry.

  The region walks ten grid points. At point `t` it reads rows `10000 t … 10000 t + 9999` of the feature array and
  of the scaling column, the whole weight matrix, and writes back rows `10000 t … 10000 t + 9999` of its output. The
  block it writes back is, entry by entry, the scaled projection `Cert.Gcn.projected` of the entry contents read at
  the block's place in the array: row `p` of the block is row `10000 t + p` of the array, and the weight matrix's one
  block is the matrix itself. The ten blocks tile the 100000 rows (row `r` lies in the block of point `r / 10000`), so
  after the region the whole output array is `projected` of the entry contents.
-/
import proofs.«135910_j9706626090092_2_alg».proof.Proof.Gen.KernelIdeal.Frame
import proofs.«135910_j9706626090092_2_alg».proof.Proof.Payload
import proofs.«135910_j9706626090092_2_alg».proof.Proof.Spec

set_option maxRecDepth 16384

noncomputable section

namespace Cert.KernelIdeal.Gcn

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn
open scoped BigOperators

variable (V : (c : Dev nD) → (b : Ref sig .tc) → Buf (Elt Ideal) ((c : Thread nD τ).loc b))

/-- The printed index maps over the ten points: the feature, column and output windows sit on block row `t` and
    block column 0, the weight window on block (0, 0). -/
theorem index_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- One stored entry against the array function: if row `p` of the feature block is row `i 0` of an array `A0`,
    column `q` of the weight block is column `i 1` of `A1`, and entry `p` of the column block is entry `i 0` of
    `A2`, then the body's value at `(p, q)` is `projected A0 A1 A2` at `i`. -/
theorem linear_block (x0 : Vec Ideal S10000x128 .f32) (x1 : Vec Ideal S128x64 .f32) (x2 : Vec Ideal S10000x1 .f32)
    (A0 : FVec Ideal ⟨2, ![100000, 128]⟩ .f32) (A1 : FVec Ideal ⟨2, ![128, 64]⟩ .f32) (A2 : FVec Ideal ⟨2, ![100000, 1]⟩ .f32)
    (p : Fin 10000) (q : Fin 64) (i : (⟨2, ![100000, 64]⟩ : Shape).Idx)
    (h0 : ∀ k : Fin 128, x0 (ix2 p k) = A0 (ix2 (i 0) k))
    (h1 : ∀ k : Fin 128, x1 (ix2 k q) = A1 (ix2 k (i 1)))
    (h2 : x2 (ix2 p (0 : Fin 1)) = A2 (ix2 (i 0) (0 : Fin 1))) :
    k0_pay1 (F := Ideal) x0 x1 x2 (ix2 p q) = projected A0 A1 A2 i := by
  rw [linear_payload, h2]
  unfold projected projectedAt
  congr 1
  exact Finset.sum_congr rfl fun k _ => by rw [h0 k, h1 k]

/-- What point `t` writes back is block `t` of `projected` of the arrays as the region finds them. -/
theorem region0_flushed (c : Dev nD) (t : Fin cfg0.N) :
    (dat0 V c).flushed 3 t
      = ((cfg0.win 3).blk t).view.read (Elt Ideal) (projected (V c main_arg0) (V c main_arg1) (V c main_v7)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x64) zero_offsets,
    View.ld_unit_zero (S := S10000x1) zero_offsets]
  obtain ⟨e0, e1, e2, e3, e4, e5, e6, e7⟩ := index_facts0 t
  funext j
  obtain ⟨p, q, rfl⟩ : ∃ (p : Fin 10000) (q : Fin 64), j = ix2 p q := ⟨j 0, j 1, eq_ix2 j⟩
  show k0_pay1 (F := Ideal) (iblk0 V c 0 t) (iblk0 V c 1 t) (iblk0 V c 2 t) (ix2 p q)
    = projected (V c main_arg0) (V c main_arg1) (V c main_v7) (((cfg0.win 3).blk t).view.emb (ix2 p q))
  refine linear_block (iblk0 V c 0 t) (iblk0 V c 1 t) (iblk0 V c 2 t) (V c main_arg0) (V c main_arg1) (V c main_v7) p q
    (((cfg0.win 3).blk t).view.emb (ix2 p q)) (fun k => ?_) (fun k => ?_) ?_
  · show V c main_arg0 (((cfg0.win 0).blk t).view.emb (ix2 p k)) = V c main_arg0 _
    refine congrArg (V c main_arg0) (funext fun a => Fin.ext ?_)
    match a with
    | ⟨0, _⟩ =>
      show win0_0.index t (0 : Fin 2) * 10000 + 1 * p.val = win0_3.index t (0 : Fin 2) * 10000 + 1 * p.val
      omega
    | ⟨1, _⟩ =>
      show win0_0.index t (1 : Fin 2) * 128 + 1 * k.val = k.val
      omega
  · show V c main_arg1 (((cfg0.win 1).blk t).view.emb (ix2 k q)) = V c main_arg1 _
    refine congrArg (V c main_arg1) (funext fun a => Fin.ext ?_)
    match a with
    | ⟨0, _⟩ =>
      show win0_1.index t (0 : Fin 2) * 128 + 1 * k.val = k.val
      omega
    | ⟨1, _⟩ =>
      show win0_1.index t (1 : Fin 2) * 64 + 1 * q.val = win0_3.index t (1 : Fin 2) * 64 + 1 * q.val
      omega
  · show V c main_v7 (((cfg0.win 2).blk t).view.emb (ix2 p (0 : Fin 1))) = V c main_v7 _
    refine congrArg (V c main_v7) (funext fun a => Fin.ext ?_)
    match a with
    | ⟨0, _⟩ =>
      show win0_2.index t (0 : Fin 2) * 10000 + 1 * p.val = win0_3.index t (0 : Fin 2) * 10000 + 1 * p.val
      omega
    | ⟨1, _⟩ =>
      show win0_2.index t (1 : Fin 2) * 1 + 1 * 0 = 0
      omega

/-- An index of the output array is in point `t`'s block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v8).slice (win0_3.rect t)).set ↔ _
  rw [View.set_slice_whole, Rect.mem_set_unit]
  exact Iff.rfl

/-- Every index of the output array is in the block of the point that holds its row: row `r` is in block
    `r / 10000`. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have ht : (i 0).val / 10000 < cfg0.N := by show (i 0).val / 10000 < grid0.N; rw [hN]; omega
  obtain ⟨-, -, -, -, -, -, e6, e7⟩ := index_facts0 ⟨(i 0).val / 10000, ht⟩
  have e6' : win0_3.index ⟨(i 0).val / 10000, ht⟩ (0 : Fin 2) = (i 0).val / 10000 := e6
  refine ⟨⟨(i 0).val / 10000, ht⟩, flush0_3 _, ?_⟩
  rw [mem_block0]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e6']; omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e7]; omega

/-- After the region its output array is `projected` of the feature array, the weight matrix and the scaling column
    as the region found them. -/
theorem region0_final (c : Dev nD) :
    (dat0 V c).arrAt 3 cfg0.N = projected (V c main_arg0) (V c main_arg1) (V c main_v7) :=
  (dat0 V c).arrAt_eq_of_cover 3 _ (fun t _ => region0_flushed V c t) cover0

end Cert.KernelIdeal.Gcn

end
-- ==== Proof.Entry1.lean ====
/-
  What the first tiled region leaves, and what the second finds on entry.

  The first region's output array is `projected` of what it entered with; its scaling column is an input, left as
  entered; the bias vector and the two index vectors are no array of the region and are left as they were. The
  stretch of host operations between the regions then builds the aggregated array from that output and the index
  vectors (`aggregate`), re-lays the bias vector as a row, and leaves the scaling column alone.
-/
import proofs.«135910_j9706626090092_2_alg».proof.Proof.Gen.KernelIdeal.Frame
import proofs.«135910_j9706626090092_2_alg».proof.Proof.Blocks0
import proofs.«135910_j9706626090092_2_alg».proof.Proof.HostOps

set_option maxRecDepth 16384

noncomputable section

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- The first region's output array is `projected` of what it entered with. -/
theorem exit0_output (c : Dev nD) :
    V4 m ρ c main_v8 = projected (V3 m ρ c main_arg0) (V3 m ρ c main_arg1) (V3 m ρ c main_v7) :=
  (W4_arr m ρ c 3).trans (region0_final (V3 m ρ) c)

/-- The scaling column is an input window's array: left as entered. -/
theorem exit0_column (c : Dev nD) : V4 m ρ c main_v7 = V3 m ρ c main_v7 :=
  (W4_arr m ρ c 2).trans (((dat0 (V3 m ρ) c).arrAt_in 2 rfl _).trans (A_eq0 (V3 m ρ) c 2))

theorem exit0_arg2 (c : Dev nD) : V4 m ρ c main_arg2 = V3 m ρ c main_arg2 := W4_of_ne m ρ c main_arg2 (by decide)
theorem exit0_arg3 (c : Dev nD) : V4 m ρ c main_arg3 = V3 m ρ c main_arg3 := W4_of_ne m ρ c main_arg3 (by decide)
theorem exit0_arg4 (c : Dev nD) : V4 m ρ c main_arg4 = V3 m ρ c main_arg4 := W4_of_ne m ρ c main_arg4 (by decide)

theorem entry1_aggregate (c : Dev nD) :
    V5 m ρ c main_v18 = aggregate (V4 m ρ c main_v8) (V4 m ρ c main_arg3) (V4 m ρ c main_arg4) := by
  show StableHlo.after hostOps1 (W4 m ρ c) (Proc.devRef .tc main_v18) = _
  dsimp only [hostOps1]
  after_results <;> rfl

theorem entry1_column (c : Dev nD) : V5 m ρ c main_v7 = V4 m ρ c main_v7 := by
  show StableHlo.after hostOps1 (W4 m ρ c) (Proc.devRef .tc main_v7) = _
  dsimp only [hostOps1]
  after_results <;> rfl

theorem entry1_bias (c : Dev nD) :
    V5 m ρ c main_v19 = shapeCast S1x64 (V4 m ρ c main_arg2) shapeCasts_S64_S1x64 := by
  show StableHlo.after hostOps1 (W4 m ρ c) (Proc.devRef .tc main_v19) = _
  dsimp only [hostOps1]
  after_results <;> rfl

end Cert.KernelIdeal.Gcn

end
-- ==== Proof.ResultValue.lean ====
/-
  The idealized kernel program's result array as one function of the five launch arrays.

  At the last boundary the result buffer holds what the second region left: `rescaled` of what that region entered
  with. Walking each of those three arrays back — through the stretch between the regions, the first region, and the
  stretches before it — gives: the aggregated array is `aggregate` of the first region's output `projected features
  weights column` and the launch's index vectors; the column is `column (invSqrtDeg sources)`; the row is
  `biasRow bias`.
-/
import proofs.«135910_j9706626090092_2_alg».proof.Proof.Gen.KernelIdeal.Frame
import proofs.«135910_j9706626090092_2_alg».proof.Proof.Blocks1
import proofs.«135910_j9706626090092_2_alg».proof.Proof.Entry0
import proofs.«135910_j9706626090092_2_alg».proof.Proof.Entry1

set_option maxRecDepth 16384

noncomputable section

namespace Cert.KernelIdeal.Gcn

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- The column both regions read is `column (invSqrtDeg sources)`. -/
theorem column_value (c : Dev nD) :
    V3 m ρ c main_v7 = column (invSqrtDeg (m ((c : Thread nD τ).loc main_arg3))) :=
  (entry0_column m ρ c).trans (column_eq _ _)

/-- The first region's output, over the launch arrays. -/
theorem projected_value (c : Dev nD) :
    V4 m ρ c main_v8 = projected (m ((c : Thread nD τ).loc main_arg0)) (m ((c : Thread nD τ).loc main_arg1))
      (column (invSqrtDeg (m ((c : Thread nD τ).loc main_arg3)))) :=
  (exit0_output m ρ c).trans (by rw [entry0_arg0, entry0_arg1, column_value])

/-- The aggregated array the second region enters with, over the launch arrays. -/
theorem aggregate_value (c : Dev nD) :
    V5 m ρ c main_v18 = aggregate
      (projected (m ((c : Thread nD τ).loc main_arg0)) (m ((c : Thread nD τ).loc main_arg1))
        (column (invSqrtDeg (m ((c : Thread nD τ).loc main_arg3)))))
      (m ((c : Thread nD τ).loc main_arg3)) (m ((c : Thread nD τ).loc main_arg4)) :=
  (entry1_aggregate m ρ c).trans (by
    rw [projected_value, exit0_arg3, exit0_arg4, entry0_arg3, entry0_arg4])

/-- The column the second region enters with. -/
theorem column_value1 (c : Dev nD) :
    V5 m ρ c main_v7 = column (invSqrtDeg (m ((c : Thread nD τ).loc main_arg3))) :=
  (entry1_column m ρ c).trans ((exit0_column m ρ c).trans (column_value m ρ c))

/-- The bias row the second region enters with. -/
theorem bias_value (c : Dev nD) :
    V5 m ρ c main_v19 = biasRow (m ((c : Thread nD τ).loc main_arg2)) :=
  (entry1_bias m ρ c).trans
    ((congrArg (fun x => shapeCast S1x64 x shapeCasts_S64_S1x64) ((exit0_arg2 m ρ c).trans (entry0_arg2 m ρ c))).trans
      (biasRow_eq _ _))

/-- The result array at the last boundary, as a function of the launch contents of the five arguments. -/
theorem result_value (c : Dev nD) :
    W6 m ρ c (Proc.devRef .tc main_v20)
      = rescaled
          (aggregate
            (projected (m ((c : Thread nD τ).loc main_arg0)) (m ((c : Thread nD τ).loc main_arg1))
              (column (invSqrtDeg (m ((c : Thread nD τ).loc main_arg3)))))
            (m ((c : Thread nD τ).loc main_arg3)) (m ((c : Thread nD τ).loc main_arg4)))
          (column (invSqrtDeg (m ((c : Thread nD τ).loc main_arg3))))
          (biasRow (m ((c : Thread nD τ).loc main_arg2))) := by
  refine (W6_arr m ρ c 3).trans ?_
  refine (region1_final (V5 m ρ) c).trans ?_
  rw [aggregate_value, column_value1, bias_value]

end Cert.KernelIdeal.Gcn

end
-- ==== Proof.RefValue.lean ====
/-
  The idealized reference's result as the same function of its arguments.

  The reference computes the inverse square root of the clamped out-degrees once (`val_main_v6`), multiplies the
  dense product of features and weights by it spread along the rows, gathers and adds along the edges, multiplies by
  the same spread vector again and adds the bias spread along the columns. Read at a node `p` and an output feature
  `q`: the dense product is `∑ k, x (p, k) · w (k, q)`; a vector spread to a column and then along the rows is, at
  `(p, q)`, its entry `p`; the bias spread to a row and then along the columns is its entry `q`. So the array before
  the gather is `projected` and the result is `rescaled` of the aggregated array — the gather and the scatter-add
  themselves (`aggregateRef`) are carried as one function and never opened.
-/
import proofs.«135910_j9706626090092_2_alg».proof.Proof.Gen.ReferenceIdeal.Read
import proofs.«135910_j9706626090092_2_alg».proof.Proof.Spec
import Idealize.ShloMosaic.Lib.ValueIdx
import Idealize.ShloMosaic.PureOps.Ideal.Laws

set_option maxRecDepth 16384

noncomputable section

namespace Cert.ReferenceIdeal.Gcn

open Idealize.ShloMosaic Idealize.ShloMosaic.ValueIdx
open Cert.ReferenceIdeal Cert.ReferenceIdeal.Gen Cert.ReferenceIdeal.Read Cert.Gcn
open scoped BigOperators

/-- The reference's gather of the rows named by the sources and scatter-add into the rows named by the destinations,
    as one function of the array gathered from and the two index vectors. -/
def aggregateRef (H : FVec Ideal S100000x64 .f32) (x3 x4 : IVec S1600000 32) : FVec Ideal S100000x64 .f32 :=
  Host.scatterAdd (F := Ideal) (φ := .f32) scatter_S100000x64_S1600000x1_S1600000x64_1_0_0_1
    (val_main_v18 (F := Ideal)) (val_main_v19 (F := Ideal) x4)
    (Host.gather gather_S100000x64_S1600000x1_S1600000x64_1_0_n_n_0_1_164 H (val_main_v16 (F := Ideal) x3))

/-- The array the reference gathers from is `projected` of the features, the weights and the column of inverse
    square roots. -/
theorem projected_eq (x0 : (⟨S100000x128, .f32⟩ : BufTy).Contents (Elt Ideal)) (x1 : (⟨S128x64, .f32⟩ : BufTy).Contents (Elt Ideal))
    (x3 : (⟨S1600000, .i32⟩ : BufTy).Contents (Elt Ideal)) :
    val_main_v10 (F := Ideal) x0 x1 x3 = projected x0 x1 (column (val_main_v6 (F := Ideal) x3)) := by
  funext i
  have el : ∀ k : Fin 128, lidx_main_v7 i k = ix2 (i 0) k := fun k => funext fun a => Fin.ext (by
    match a with
    | ⟨0, _⟩ => rfl
    | ⟨1, _⟩ => rfl)
  have er : ∀ k : Fin 128, ridx_main_v7 i k = ix2 k (i 1) := fun k => funext fun a => Fin.ext (by
    match a with
    | ⟨0, _⟩ => rfl
    | ⟨1, _⟩ => rfl)
  have en : idx_main_v8 (idx_main_v9 i) = ix1 (i 0) := funext fun a => Fin.ext (by
    match a with
    | ⟨0, _⟩ => rfl)
  rw [val_main_v10_apply, val_main_v7_apply, val_main_v9_apply, val_main_v8_apply, en]
  simp only [el, er]
  rfl

/-- The reference's result is `rescaled` of its aggregated array, the same column and the bias row. -/
theorem result_eq (x0 : (⟨S100000x128, .f32⟩ : BufTy).Contents (Elt Ideal)) (x1 : (⟨S128x64, .f32⟩ : BufTy).Contents (Elt Ideal))
    (x2 : (⟨S64, .f32⟩ : BufTy).Contents (Elt Ideal)) (x3 x4 : (⟨S1600000, .i32⟩ : BufTy).Contents (Elt Ideal)) :
    val_main_v26 (F := Ideal) x0 x1 x2 x3 x4
      = rescaled (aggregateRef (projected x0 x1 (column (val_main_v6 (F := Ideal) x3))) x3 x4)
          (column (val_main_v6 (F := Ideal) x3)) (biasRow x2) := by
  rw [← projected_eq]
  funext i
  have en : idx_main_v21 (idx_main_v22 i) = ix1 (i 0) := funext fun a => Fin.ext (by
    match a with
    | ⟨0, _⟩ => rfl)
  have eb : idx_main_v24 (idx_main_v25 i) = ix1 (i 1) := funext fun a => Fin.ext (by
    match a with
    | ⟨0, _⟩ => rfl)
  have hn : val_main_v22 (F := Ideal) x3 i = val_main_v6 (F := Ideal) x3 (ix1 (i 0)) :=
    (val_main_v22_apply x3 i).trans ((val_main_v21_apply x3 _).trans (congrArg _ en))
  have hb : val_main_v25 (F := Ideal) x2 i = x2 (ix1 (i 1)) :=
    (val_main_v25_apply x2 i).trans ((val_main_v24_apply x2 _).trans (congrArg _ eb))
  refine (val_main_v26_apply x0 x1 x2 x3 x4 i).trans ?_
  refine (congrArg₂ (fun a b => FloatOps.addf (F := Ideal) a b) ((val_main_v23_apply x0 x1 x3 x4 i).trans
    (congrArg (fun b => FloatOps.mulf (F := Ideal) (val_main_v20 (F := Ideal) x0 x1 x3 x4 i) b) hn)) hb).trans ?_
  rfl

end Cert.ReferenceIdeal.Gcn

end
-- ==== Proof.Bridge.lean ====
/-
  The two idealized programs compute one function.

  Kernel side: the result array ends at `rescaled (aggregate (projected x w (column d)) src dst) (column d) (biasRow b)`
  with `d = invSqrtDeg src` — the run with its result named, read through the walk back to the launch memory.
  Reference side: the generated run ends at the operations' composed term, which read index by index is the same
  expression with the reference's own spelling of the degree vector and of the gather-and-add. The two spellings are
  the same operations with the same dimension numbers and the same literal words applied to the same arguments, so
  they are equal by definition; nothing about gathers, scatter-adds or powers is used. With the argument
  arrays of the two launches agreeing, the two results are equal as extended reals, entry by entry. No finiteness
  of the inputs is needed: both sides are the same products and sums in the same order.
-/
import proofs.«135910_j9706626090092_2_alg».proof.Defs
import proofs.«135910_j9706626090092_2_alg».proof.Proof.Gen.Pre_finite_inputs
import proofs.«135910_j9706626090092_2_alg».proof.Proof.KernelRun
import proofs.«135910_j9706626090092_2_alg».proof.Proof.ResultValue
import proofs.«135910_j9706626090092_2_alg».proof.Proof.RefValue

set_option maxRecDepth 16384

noncomputable section

namespace Cert.KernelIdeal.Gcn

open Idealize.ShloMosaic Idealize.ShloMosaic.TcCoe Idealize.ShloMosaic.ValueIdx Idealize.SL.Sem
open Cert.KernelIdeal Cert.KernelIdeal.Gen Cert.Gcn

/-- The idealized kernel program's run with its result at the closed form: every weakly fair execution terminates
    without a fault, the result array holds the function of the launch arrays, the arguments end as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v20)
        = rescaled
            (aggregate
              (projected (m ((c.tc : Thread nD τ).loc main_arg0)) (m ((c.tc : Thread nD τ).loc main_arg1))
                (column (invSqrtDeg (m ((c.tc : Thread nD τ).loc main_arg3)))))
              (m ((c.tc : Thread nD τ).loc main_arg3)) (m ((c.tc : Thread nD τ).loc main_arg4)))
            (column (invSqrtDeg (m ((c.tc : Thread nD τ).loc main_arg3))))
            (biasRow (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_result m ρ)

end Cert.KernelIdeal.Gcn

namespace Cert.Proof.Gcn

open Idealize.ShloMosaic Idealize.ShloMosaic.TcCoe Idealize.SL.Sem Cert.Gcn

/-- The degree vector under the two programs' spellings: the same operations on the same source indices. -/
theorem invSqrtDeg_eq (src : IVec Cert.KernelIdeal.S1600000 32) :
    Cert.KernelIdeal.Gcn.invSqrtDeg src = Cert.ReferenceIdeal.Read.val_main_v6 (F := Ideal) src := by
  simp only [Cert.KernelIdeal.Gcn.invSqrtDeg, Cert.ReferenceIdeal.Read.val_main_v6, Cert.ReferenceIdeal.Read.val_main_v4,
    Cert.ReferenceIdeal.Read.val_main_v5, Cert.ReferenceIdeal.Read.val_main_call0_v1, Cert.ReferenceIdeal.Read.val_main_call0_v0,
    Cert.ReferenceIdeal.Read.val_main_cst_1, Cert.ReferenceIdeal.Read.val_main_cst_2, Cert.ReferenceIdeal.Read.val_main_v3,
    Cert.ReferenceIdeal.Read.val_main_v1, Cert.ReferenceIdeal.Read.val_main_v2, Cert.ReferenceIdeal.Read.val_main_v0,
    Cert.ReferenceIdeal.Read.val_main_cst, Cert.ReferenceIdeal.Read.val_main_cst_0] <;> rfl

/-- The gather-and-add under the two programs' spellings: the same operations on the same array and indices. -/
theorem aggregate_eq (H : FVec Ideal Cert.KernelIdeal.S100000x64 .f32) (src dst : IVec Cert.KernelIdeal.S1600000 32) :
    Cert.KernelIdeal.Gcn.aggregate H src dst = Cert.ReferenceIdeal.Gcn.aggregateRef H src dst := by
  simp only [Cert.KernelIdeal.Gcn.aggregate, Cert.ReferenceIdeal.Gcn.aggregateRef, Cert.ReferenceIdeal.Read.val_main_v18,
    Cert.ReferenceIdeal.Read.val_main_cst_4, Cert.ReferenceIdeal.Read.val_main_v19, Cert.ReferenceIdeal.Read.val_main_v16,
    Cert.ReferenceIdeal.Read.val_main_v15, Cert.ReferenceIdeal.Read.val_main_v12, Cert.ReferenceIdeal.Read.val_main_v14,
    Cert.ReferenceIdeal.Read.val_main_v11, Cert.ReferenceIdeal.Read.val_main_v13, Cert.ReferenceIdeal.Read.val_main_c,
    Cert.ReferenceIdeal.Read.val_main_c_3] <;> rfl

/-- From memories agreeing on the five arguments both idealized programs run and end with equal result arrays. -/
theorem algebraic : Cert.algebraic_KernelIdeal_ReferenceIdeal := by
  intro m ρ m' ρ' _ hagree
  refine ⟨_, Cert.KernelIdeal.Gcn.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Gcn.result_eq,
    (hagree c).1, (hagree c).2.1, (hagree c).2.2.1, (hagree c).2.2.2.1, (hagree c).2.2.2.2,
    ← invSqrtDeg_eq, ← aggregate_eq]

end Cert.Proof.Gcn

end
-- ==== Proof.lean ====
/-
  The certificate of a graph-convolution layer: a tiled kernel program against its plain reference.

  Both programs compute, for 100000 nodes, 1600000 edges, 128 input and 64 output features,
  `out = D · A · D · (X · W) + b`: the dense projection `X · W`, each node's row scaled by `d = deg^(-1/2)` (the
  out-degree clamped below at one), the rows gathered along the edges' sources and summed into the edges'
  destinations, scaled by `d` again, plus the bias. The kernel program does the projection-and-scale and the
  final scale-and-bias in two regions tiled over ten blocks of 10000 rows, and the degree vector and the
  gather-and-add on the host; the reference does everything on the host.

  * The three frames: the two kernel programs' frames are the generated ones (each region a single-case body
    that loads whole blocks and stores a whole block); the reference's frame is its generated run with the result
    dropped.
  * The idealized kernel program is the word-level one read over the extended reals with no rewrite applied, so
    there is nothing to preserve.
  * The two idealized programs end with equal results (`Proof/Bridge.lean`): each region's output array is one
    whole-array function of what the region enters with (`Proof/Blocks0.lean`, `Proof/Blocks1.lean`), the host
    stretches are read back to the launch memory (`Proof/Entry0.lean`, `Proof/Entry1.lean`,
    `Proof/ResultValue.lean`), the reference's term is read index by index (`Proof/RefValue.lean`), and the two
    are the same expression.
-/
import proofs.«135910_j9706626090092_2_alg».proof.Defs
import proofs.«135910_j9706626090092_2_alg».proof.Proof.Gen.Kernel
import proofs.«135910_j9706626090092_2_alg».proof.Proof.Gen.Kernel.Frame
import proofs.«135910_j9706626090092_2_alg».proof.Proof.Gen.KernelIdeal
import proofs.«135910_j9706626090092_2_alg».proof.Proof.Gen.KernelIdeal.Frame
import proofs.«135910_j9706626090092_2_alg».proof.Proof.Gen.ReferenceIdeal
import proofs.«135910_j9706626090092_2_alg».proof.Proof.Gen.ReferenceIdeal.Run
import proofs.«135910_j9706626090092_2_alg».proof.Proof.Gen.Pre_finite_inputs
import proofs.«135910_j9706626090092_2_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- The idealized kernel program runs and leaves its arguments unchanged: the generated frame. -/
theorem frame_kernelIdeal : Cert.frame_KernelIdeal := fun m ρ _ => Cert.KernelIdeal.Gen.frame m ρ

/-- The idealized reference runs and leaves its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Gcn.algebraic⟩

end Cert.Proof

end
